-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384 .f32) (main_arg1 : IVec S16384 32) : IVec S_ 1 :=
  let main_v0 : FVec F S16384 .f32 := Host.absf main_arg0
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  main_v3
-- ==== Kernel.lean ====
abbrev S16384 : Shape := ⟨1, ![16384]⟩
abbrev S128x128 : Shape := ⟨2, ![128, 128]⟩
abbrev S1x1 : Shape := ⟨2, ![1, 1]⟩
abbrev S_ : Shape := ⟨0, ![]⟩
abbrev S128 : Shape := ⟨1, ![128]⟩
abbrev S128x1 : Shape := ⟨2, ![128, 1]⟩
abbrev S1 : Shape := ⟨1, ![1]⟩

abbrev nBuf : Space → Nat
  | .hbm => 6
  | .vmem => 3
  | .smem => 0
  | _ => 0

abbrev bufTy : (tb : Table) → Fin (tcTables nBuf tb) → BufTy
  | .hbm, ⟨0, _⟩ => ⟨S16384, .f32⟩
  | .hbm, ⟨1, _⟩ => ⟨S16384, .i32⟩
  | .hbm, ⟨2, _⟩ => ⟨S128x128, .f32⟩
  | .hbm, ⟨3, _⟩ => ⟨S128x128, .i32⟩
  | .hbm, ⟨4, _⟩ => ⟨S1x1, .f32⟩
  | .hbm, ⟨5, _⟩ => ⟨S_, .f32⟩
  | .local _ .vmem, ⟨0, _⟩ => ⟨S128x128, .f32⟩
  | .local _ .vmem, ⟨1, _⟩ => ⟨S128x128, .i32⟩
  | .local _ .vmem, ⟨2, _⟩ => ⟨S1x1, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S16384_S128x128 : S16384.ShapeCasts S128x128
  shapeCasts_S1x1_S_ : S1x1.ShapeCasts S_
  inb_S128x128_S128x128_0_0 : ∀ a, (![0, 0] : Fin 2 → Nat) a + S128x128.size a ≤ S128x128.size a
  h_S128x128 : 0 < S128x128.numel
  shapeCasts_S128x128_S128x128 : S128x128.ShapeCasts S128x128
  natLt_1_32 : 1 < 32
  reduces_S128x128_S128 : S128x128.Reduces [1] S128
  shapeCasts_S128_S128x1 : S128.ShapeCasts S128x1
  reduces_S128x1_S1 : S128x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S128x128.size a
  hwx0_0 : ∀ i : grid0.Coords, EltTy.bits .f32 = 32 ∨ (Rect.block (s := S128x128) S128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .i32 = 32 ∨ (Rect.block (s := S128x128) S128x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_call0_v0) S128x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384 : Shape := ⟨1, ![16384]⟩
abbrev S_ : Shape := ⟨0, ![]⟩
abbrev S16384x1 : Shape := ⟨2, ![16384, 1]⟩
abbrev S1x16384 : Shape := ⟨2, ![1, 16384]⟩
abbrev S16384x16384 : Shape := ⟨2, ![16384, 16384]⟩

abbrev nBuf : Space → Nat
  | .hbm => 41
  | .vmem => 0
  | .smem => 0
  | _ => 0

abbrev bufTy : (tb : Table) → Fin (tcTables nBuf tb) → BufTy
  | .hbm, ⟨0, _⟩ => ⟨S16384, .f32⟩
  | .hbm, ⟨1, _⟩ => ⟨S16384, .i32⟩
  | .hbm, ⟨2, _⟩ => ⟨S16384, .f32⟩
  | .hbm, ⟨3, _⟩ => ⟨S16384, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S16384, .f32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S16384, .f32⟩
  | .hbm, ⟨18, _⟩ => ⟨S16384x1, .f32⟩
  | .hbm, ⟨19, _⟩ => ⟨S1x16384, .f32⟩
  | .hbm, ⟨20, _⟩ => ⟨S16384x16384, .f32⟩
  | .hbm, ⟨21, _⟩ => ⟨S16384x16384, .f32⟩
  | .hbm, ⟨22, _⟩ => ⟨S16384x16384, .f32⟩
  | .hbm, ⟨23, _⟩ => ⟨S_, .f32⟩
  | .hbm, ⟨24, _⟩ => ⟨S16384x16384, .f32⟩
  | .hbm, ⟨25, _⟩ => ⟨S16384x16384, .f32⟩
  | .hbm, ⟨26, _⟩ => ⟨S16384x1, .f32⟩
  | .hbm, ⟨27, _⟩ => ⟨S1x16384, .f32⟩
  | .hbm, ⟨28, _⟩ => ⟨S16384x16384, .f32⟩
  | .hbm, ⟨29, _⟩ => ⟨S16384x16384, .f32⟩
  | .hbm, ⟨30, _⟩ => ⟨S16384x16384, .f32⟩
  | .hbm, ⟨31, _⟩ => ⟨S16384x16384, .f32⟩
  | .hbm, ⟨32, _⟩ => ⟨S16384x16384, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S_d0_1 : S16384x16384.ReducesTo [0, 1] S_
  h_S_ : 0 < S_.numel
  reducesTo_S16384_S_d0 : S16384.ReducesTo [0] S_

variable [Facts₀]

class Facts : Prop extends Facts₀ where

variable [Facts]
-- ==== Proof.KernelValue.lean ====
/-
  The kernel's run, read: the scalar result as one term of the two argument arrays.

  The call has one grid point; each input window's block is its whole [128,128] array and the output window's
  block is the whole [1,1] result. So the array the call leaves is the body's one stored value computed from the
  two whole input arrays; the host line after the call views that [1,1] array as a scalar, and the two host lines
  before it view each [16384] argument as a [128,128] array.
-/
import proofs.«115600_j68685116998328_2_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The body's one stored value, from the two whole input blocks: the quotient of the streamed polynomial by the
    product of the two counts. -/
def bodyOut (x0 : Vec F S128x128 .f32) (x1 : Vec F S128x128 .i32) : Vec F S1x1 .f32 :=
  k0_pay1 (k0_pay5 x1) (k0_pay6 x0 x1) (k0_pay7 x0 x1) (k0_pay8 x1) (k0_pay9 x0 x1) (k0_pay10 x0 x1) (k0_pay11 x0 x1)
    (Scalar.ofBits .f32 0x40000000#32)

theorem zero_offsets : (![0, 0] : Fin 2 → Nat) = fun _ => 0 := funext fun a => by fin_cases a <;> rfl

/-- What the body leaves in the output's staging buffer is that value: its one store covers the buffer and its loads
    read the whole input buffers. -/
theorem out_eq (x0 : Vec F S128x128 .f32) (x1 : Vec F S128x128 .i32) : out0_2 x0 x1 = bodyOut x0 x1 := by
  unfold out0_2 bodyOut
  rw [View.canon_unit_zero zero_offsets]
  simp only [View.ld_unit_zero (S := S128x128) zero_offsets]

/-- Every window's block index is zero on both axes, at the one grid point. -/
theorem index_zero : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The first input's block is its whole array as the call finds it. -/
theorem block0_eq (c : Dev nD) (t : Fin cfg0.N) : iblk m c 0 t = V m c main_call0_v0 := by
  obtain ⟨e0, e1, -⟩ := index_zero t
  funext y
  show V m c main_call0_v0 (((cfg0.win 0).blk t).view.emb y) = V m c main_call0_v0 y
  refine congrArg (V m c main_call0_v0) (funext fun a => Fin.ext ?_)
  match a with
  | ⟨0, _⟩ => show win0_0.index t (0 : Fin 2) * 128 + 1 * (y 0).val = (y 0).val; omega
  | ⟨1, _⟩ => show win0_0.index t (1 : Fin 2) * 128 + 1 * (y 1).val = (y 1).val; omega

/-- The second input's block is its whole array as the call finds it. -/
theorem block1_eq (c : Dev nD) (t : Fin cfg0.N) : iblk m c 1 t = V m c main_call0_v1 := by
  obtain ⟨-, -, e0, e1, -⟩ := index_zero t
  funext y
  show V m c main_call0_v1 (((cfg0.win 1).blk t).view.emb y) = V m c main_call0_v1 y
  refine congrArg (V m c main_call0_v1) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- What the one point writes back is the body's value of the two whole arrays, read through the output's
    (whole-array) block. -/
theorem flushed_eq (c : Dev nD) (t : Fin cfg0.N) :
    (dats m 0 c).flushed 2 t
      = ((cfg0.win 2).blk t).view.read (Elt F) (bodyOut (V m c main_call0_v0) (V m c main_call0_v1)) := by
  show (cfg0.win 2).cut (grid0.coords t) ((dats m 0 c).after 2 t) = _
  rw [after0_2, out_eq, block0_eq, block1_eq]
  obtain ⟨-, -, -, -, e0, e1⟩ := index_zero t
  funext j
  show bodyOut (V m c main_call0_v0) (V m c main_call0_v1) j
    = bodyOut (V m c main_call0_v0) (V m c main_call0_v1) (((cfg0.win 2).blk t).view.emb j)
  refine congrArg (bodyOut (V m c main_call0_v0) (V m c main_call0_v1)) (funext fun a => Fin.ext ?_)
  match a with
  | ⟨0, _⟩ => show (j 0).val = win0_2.index t (0 : Fin 2) * 1 + 1 * (j 0).val; omega
  | ⟨1, _⟩ => show (j 1).val = win0_2.index t (1 : Fin 2) * 1 + 1 * (j 1).val; omega

/-- An index of the [1,1] array is in the point's block iff each coordinate is in the block's range. -/
theorem mem_block (t : Fin cfg0.N) (i : S1x1.Idx) :
    i ∈ ((cfg0.win 2).blk t).view.set ↔ ∀ a : Fin 2, win0_2.index t a * S1x1.size a ≤ (i a).val
      ∧ (i a).val < win0_2.index t a * S1x1.size a + S1x1.size a := by
  show i ∈ ((View.whole main_call0_v2).slice (win0_2.rect t)).set ↔ _
  rw [View.set_slice_whole, Rect.mem_set_unit]
  exact Iff.rfl

/-- The one block covers the [1,1] array. -/
theorem covered (i : S1x1.Idx) :
    ∃ t : Fin cfg0.N, (cfg0.win 2).flush t = true ∧ i ∈ ((cfg0.win 2).blk t).view.set := by
  obtain ⟨-, -, -, -, e0, e1⟩ := index_zero t0_0
  refine ⟨t0_0, flush0_2 t0_0, ?_⟩
  rw [mem_block]
  intro a
  match a with
  | ⟨0, _⟩ =>
    show win0_2.index t0_0 (0 : Fin 2) * 1 ≤ (i 0).val ∧ (i 0).val < win0_2.index t0_0 (0 : Fin 2) * 1 + 1
    have h := ValueIdx.idx2_lt0 i; omega
  | ⟨1, _⟩ =>
    show win0_2.index t0_0 (1 : Fin 2) * 1 ≤ (i 1).val ∧ (i 1).val < win0_2.index t0_0 (1 : Fin 2) * 1 + 1
    have h := ValueIdx.idx2_lt1 i; omega

/-- The [1,1] array after the call: the body's value of the two [128,128] arrays the call finds. -/
theorem final (c : Dev nD) :
    (dats m 0 c).arrAt 2 cfg0.N = bodyOut (V m c main_call0_v0) (V m c main_call0_v1) :=
  (dats m 0 c).arrAt_eq_of_cover 2 (bodyOut (V m c main_call0_v0) (V m c main_call0_v1))
    (fun t _ => flushed_eq m c t) covered

/-- The first [128,128] array the call finds is the first argument reshaped. -/
theorem entry0 (c : Dev nD) :
    (V m c main_call0_v0 : S128x128.Idx → Elt F .f32)
      = shapeCast S128x128 (m ((c : Thread nD τ).loc main_arg0)) shapeCasts_S16384_S128x128 := by
  show StableHlo.after hostOps0 (fun b => m (c, b)) (Proc.devRef .tc main_call0_v0) = _
  after_results
  rfl

/-- The second [128,128] array the call finds is the second argument reshaped. -/
theorem entry1 (c : Dev nD) :
    (V m c main_call0_v1 : S128x128.Idx → Elt F .i32)
      = shapeCast S128x128 (m ((c : Thread nD τ).loc main_arg1)) shapeCasts_S16384_S128x128 := by
  show StableHlo.after hostOps0 (fun b => m (c, b)) (Proc.devRef .tc main_call0_v1) = _
  after_results
  rfl

/-- The program's scalar result as one term of its two arguments. -/
def result (a0 : S16384.Idx → Elt F .f32) (a1 : S16384.Idx → Elt F .i32) : S_.Idx → Elt F .f32 :=
  shapeCast S_ (bodyOut (shapeCast S128x128 a0 shapeCasts_S16384_S128x128)
    (shapeCast S128x128 a1 shapeCasts_S16384_S128x128)) shapeCasts_S1x1_S_

/-- The host line after the call leaves the scalar at that term. -/
theorem tail_eq (c : Dev nD) :
    Pipeline.afterTail₀ cfgs (dats m) 0 (V0 m) [hostOps1] c main_v0
      = result (m ((c : Thread nD τ).loc main_arg0)) (m ((c : Thread nD τ).loc main_arg1)) := by
  unfold Pipeline.afterTail₀
  show StableHlo.after hostOps1 _ (Proc.devRef .tc main_v0) = _
  after_results
  rw [show (Pipeline.withArrays (cfgs 0).spec c (V0 m c) (fun w => (dats m 0 c).arrAt w (cfgs 0).N)
        (Proc.devRef .tc main_call0_v2)) = (dats m 0 c).arrAt 2 cfg0.N from
      Pipeline.withArrays_arr spec0 launch0.win.arr_inj c _ _ 2]
  rw [final, entry0, entry1]
  rfl

/-- The run, read: every weakly fair execution terminates with the scalar result at `result` of the arguments and
    the arguments unchanged. -/
theorem run : θ_run defs (onTc (τ := τ) (main (F := F))) ⟨m, fun _ => 0, ρ⟩ fun r => ∀ c : Dev nD,
      r.2.mem ((c.tc : Thread nD τ).loc main_v0)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v0 (Pipeline.mem_restRefs_of main_v0 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Whole

end
-- ==== Proof.PairSum.lean ====
/-
  The algebra behind the streaming form of the all-pairs loss, over the reals.

  For scores `s`, a positive mask `p` and a negative mask `n` on a finite index set, the all-pairs sum
  `∑ i j, (p i · n j) · (1 - (s i - s j))²` expands, term by term of the square, into products of single sums
  of `p`, `p·s`, `p·s²` against single sums of `n`, `n·s`, `n·s²`; and when `n = 1 - p` pointwise the sums
  against `n` are the complements of the sums against `p`.
-/
import Mathlib.Algebra.BigOperators.Ring.Finset
import Mathlib.Algebra.Order.BigOperators.Ring.Finset
import Mathlib.Data.Real.Basic
import Mathlib.Tactic.Ring
import Mathlib.Tactic.Linarith

open scoped BigOperators

namespace Cert.PairSum

variable {ι : Type*} [Fintype ι]

/-- With `n = 1 - p` pointwise, a sum weighted by `n` is the plain sum less the sum weighted by `p`. -/
theorem sum_compl (p n f : ι → ℝ) (hn : ∀ i, n i = 1 - p i) :
    ∑ i, n i * f i = ∑ i, f i - ∑ i, p i * f i := by
  rw [← Finset.sum_sub_distrib]
  exact Finset.sum_congr rfl fun i _ => by rw [hn i]; ring

/-- The count of negatives is the size of the index set less the count of positives. -/
theorem sum_compl_one (p n : ι → ℝ) (hn : ∀ i, n i = 1 - p i) :
    ∑ i, n i = (Fintype.card ι : ℝ) - ∑ i, p i := by
  have h := sum_compl p n (fun _ => (1 : ℝ)) hn
  simp only [mul_one, Finset.sum_const, Finset.card_univ, nsmul_eq_mul] at h
  exact h

/-- The all-pairs sum, expanded: each of the six terms of `(1 - s i + s j)²` weighted by `p i · n j` splits into
    a sum over `i` times a sum over `j`. -/
theorem pair_expand (s p n : ι → ℝ) :
    ∑ i, ∑ j, (p i * n j) * ((1 - (s i - s j)) * (1 - (s i - s j)))
      = (∑ i, p i) * (∑ j, n j) - 2 * (∑ i, p i * s i) * (∑ j, n j) + 2 * (∑ i, p i) * (∑ j, n j * s j)
        + (∑ i, p i * (s i * s i)) * (∑ j, n j) - 2 * (∑ i, p i * s i) * (∑ j, n j * s j)
        + (∑ i, p i) * (∑ j, n j * (s j * s j)) := by
  have hsplit : ∀ i j, (p i * n j) * ((1 - (s i - s j)) * (1 - (s i - s j)))
      = p i * n j - 2 * ((p i * s i) * n j) + 2 * (p i * (n j * s j)) + (p i * (s i * s i)) * n j
        - 2 * ((p i * s i) * (n j * s j)) + p i * (n j * (s j * s j)) := fun i j => by ring
  simp only [hsplit, Finset.sum_add_distrib, Finset.sum_sub_distrib, ← Finset.mul_sum, ← Finset.sum_mul]
  ring

/-- The streaming form: with `n = 1 - p` and `N` the size of the index set, the all-pairs sum is the polynomial
    in the five single sums `P = ∑ p`, `Sp = ∑ p·s`, `Sp2 = ∑ p·s²`, `S = ∑ s`, `S2 = ∑ s²`. -/
theorem pair_stream (s p n : ι → ℝ) (hn : ∀ i, n i = 1 - p i) (N : ℝ) (hN : (Fintype.card ι : ℝ) = N) :
    ∑ i, ∑ j, (p i * n j) * ((1 - (s i - s j)) * (1 - (s i - s j)))
      = (∑ i, p i) * (N - ∑ i, p i) - 2 * (∑ i, p i * s i) * (N - ∑ i, p i)
        + 2 * (∑ i, p i) * (∑ i, s i - ∑ i, p i * s i)
        + (∑ i, p i * (s i * s i)) * (N - ∑ i, p i)
        - 2 * (∑ i, p i * s i) * (∑ i, s i - ∑ i, p i * s i)
        + (∑ i, p i) * (∑ i, s i * s i - ∑ i, p i * (s i * s i)) := by
  rw [pair_expand, sum_compl_one p n hn, sum_compl p n s hn, sum_compl p n (fun i => s i * s i) hn, hN]

/-- The two denominators: the product of the two counts. -/
theorem counts_stream (p n : ι → ℝ) (hn : ∀ i, n i = 1 - p i) (N : ℝ) (hN : (Fintype.card ι : ℝ) = N) :
    (∑ i, p i) * (∑ i, n i) = (∑ i, p i) * (N - ∑ i, p i) := by
  rw [sum_compl_one p n hn, hN]

end Cert.PairSum
-- ==== Proof.SumRead.lean ====
/-
  Reading sums at the ideal values: the pieces shared by both sides of the comparison.

  * a finite sum of reals, coerced, is the sum of the coercions;
  * the float literals 1, 2 and 16384 as extended reals;
  * a [128,128] block summed along its lanes and then along its rows (each step keeping a unit axis) is the
    sum over every entry of the block;
  * a sum over a reshaped array is the sum over the array;
  * a sum over the pairs of a [16384,16384] index is the double sum over its two coordinates;
  * the 0/1 masks of "target ≠ 0" and "target = 0" as reals, complementary.
-/
import Idealize.ShloMosaic.PureOps.Ideal.Laws
import Idealize.ShloMosaic.Lib.ValueIdx
import Idealize.ShloMosaic.Lib.Pipeline.Value

noncomputable section

open scoped BigOperators

namespace Cert.SumRead

open Idealize.ShloMosaic Idealize.ShloMosaic.ValueIdx

/-! ## Coercions -/

/-- The coercion of a finite sum of reals is the sum of the coercions. -/
theorem coe_sum {ι : Type*} (A : Finset ι) (f : ι → ℝ) : ((∑ i ∈ A, f i : ℝ) : EReal) = ∑ i ∈ A, (f i : EReal) := by
  classical
  induction A using Finset.induction_on with
  | empty => simp
  | insert a A ha ih => rw [Finset.sum_insert ha, Finset.sum_insert ha, EReal.coe_add, ih]

/-! ## Literals -/

theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_16384 : Ideal.ofBits .f32 0x46800000#32 = ((16384 : ℝ) : EReal) := by
  simp [Ideal.ofBits, Ideal.ieee, -EReal.coe_mul]; norm_num

/-! ## The block's total: lanes first, then rows -/

/-- A [128,128] block of extended reals summed along its lanes into a [128] vector, viewed as a [128,1] column,
    summed along its rows into a [1] vector, viewed [1,1]: at its one index, the sum over every entry of the block
    (the two steps are a double sum over the row and the lane, which is the sum over the pairs). -/
theorem blockTotal (f : FVec Ideal ⟨2, ![128, 128]⟩ .f32)
    (h1 : (⟨2, ![128, 128]⟩ : Shape).Reduces [1] ⟨1, ![128]⟩) (c1 : (⟨1, ![128]⟩ : Shape).ShapeCasts ⟨2, ![128, 1]⟩)
    (h2 : (⟨2, ![128, 1]⟩ : Shape).Reduces [0] ⟨1, ![1]⟩) (c2 : (⟨1, ![1]⟩ : Shape).ShapeCasts ⟨2, ![1, 1]⟩)
    (hφ : FKind.Formats .f32) (hacc : (0x00000000#32 : BitVec 32) = FKind.add.neutral .f32 hφ)
    (j : (⟨2, ![1, 1]⟩ : Shape).Idx) :
    shapeCast ⟨2, ![1, 1]⟩ (multiReduction .add [0] ⟨1, ![1]⟩
        (shapeCast ⟨2, ![128, 1]⟩ (multiReduction .add [1] ⟨1, ![128]⟩ f 0x00000000#32 h1 hφ hacc) c1)
        0x00000000#32 h2 hφ hacc) c2 j
      = ∑ i : (⟨2, ![128, 128]⟩ : Shape).Idx, f i := by
  rw [sum_idx2]
  refine (shapeCast_apply _ c2 j (ix1 (0 : Fin 1)) (by
    rw [Shape.rowMajor_val_one, Shape.rowMajor_val_two]
    have h0 := idx2_lt0 j; have h1' := idx2_lt1 j
    show (0 : Nat) = (j 0).val * 1 + (j 1).val
    omega)).trans ?_
  refine (Ideal.multiReduction_add_single _ 0x00000000#32 h2 hφ hacc (ix1 (0 : Fin 1))).trans ?_
  refine Finset.sum_congr rfl fun r _ => ?_
  refine (shapeCast_apply _ c1 _ (ix1 r) (by
    rw [Shape.rowMajor_val_one, Shape.rowMajor_val_two]
    show r.val = r.val * 1 + 0
    omega)).trans ?_
  refine (Ideal.multiReduction_add_single f 0x00000000#32 h1 hφ hacc (ix1 r)).trans ?_
  refine Finset.sum_congr rfl fun q _ => ?_
  refine congrArg f (funext fun a => ?_)
  match a with
  | ⟨0, _⟩ => rfl
  | ⟨1, _⟩ => rfl

/-! ## A reshaped array's total -/

/-- A sum over the indices of two arrays reshaped alike is the sum over the arrays' own indices: a reshape matches
    the two index sets one to one (by row-major position). -/
theorem sum_shapeCast₂ {s t : Shape} {α β : Type} {M : Type*} [AddCommMonoid M] (x : s.Idx → α) (y : s.Idx → β)
    (h : s.ShapeCasts t) (g : α → β → M) :
    ∑ j : t.Idx, g (shapeCast t x h j) (shapeCast t y h j) = ∑ i : s.Idx, g (x i) (y i) :=
  Equiv.sum_comp (Shape.reshapeEquiv h) (fun i => g (x i) (y i))

/-! ## Pairs -/

/-- A [n,n] index is the pair of its two coordinates, each read as a [n] index. -/
def pairEquiv {n : Nat} : (⟨2, ![n, n]⟩ : Shape).Idx ≃ (⟨1, ![n]⟩ : Shape).Idx × (⟨1, ![n]⟩ : Shape).Idx where
  toFun j := (ix1 (n := n) (j 0), ix1 (n := n) (j 1))
  invFun p := ix2 (n0 := n) (n1 := n) (p.1 0) (p.2 0)
  left_inv j := (eq_ix2 j).symm
  right_inv p := Prod.ext (eq_ix1 p.1).symm (eq_ix1 p.2).symm

/-- So a sum over the square of a function of the two coordinates is the double sum. -/
theorem sum_pairs {M : Type*} [AddCommMonoid M] {n : Nat}
    (H : (⟨1, ![n]⟩ : Shape).Idx → (⟨1, ![n]⟩ : Shape).Idx → M) :
    ∑ j : (⟨2, ![n, n]⟩ : Shape).Idx, H (ix1 (n := n) (j 0)) (ix1 (n := n) (j 1)) = ∑ a, ∑ b, H a b := by
  rw [← Fintype.sum_prod_type']
  exact Fintype.sum_equiv pairEquiv _ _ (fun j => rfl)

/-! ## The masks -/

/-- "target ≠ 0" as a real: 1 or 0. -/
def posR (b : BitVec 32) : ℝ := ((IntOp.cmpi .ne b 0#32).toNat : ℝ)
/-- "target = 0" as a real: 1 or 0. -/
def negR (b : BitVec 32) : ℝ := ((IntOp.cmpi .eq b 0#32).toNat : ℝ)

/-- The two masks are complementary. -/
theorem negR_eq (b : BitVec 32) : negR b = 1 - posR b := by
  unfold negR posR IntOp.cmpi
  cases hb : (b == 0#32) <;> simp [hb, bne]

/-- A one-bit word widened to 32 bits and read signed is the bit. -/
theorem toInt_setWidth_bit (c : BitVec 1) : (((c.setWidth 32).toInt : ℤ) : ℝ) = (c.toNat : ℝ) := by
  have h : (c.setWidth 32).toInt = (c.toNat : ℤ) := by
    rcases BitVec.eq_zero_or_eq_one c with h | h <;> subst h <;> decide
  rw [h, Int.cast_natCast]

end Cert.SumRead

end
-- ==== Proof.Stream.lean ====
/-
  The two closed forms of the loss, over any finite index set, and their equality on finite scores.

  `value`: the streaming form. From the five totals P = ∑ p, Sp = ∑ p·s, Sp2 = ∑ p·s², S = ∑ s, S2 = ∑ s²
  (s the sigmoid of the score, p the positive mask) it forms Nn = 16384 − P, Sn = S − Sp, Sn2 = S2 − Sp2 and returns
  (P·Nn − 2·Sp·Nn + 2·P·Sn + Sp2·Nn − 2·Sp·Sn + P·Sn2) / (P·Nn).
  `refValue`: the all-pairs form, ∑ i j, (p i · n j) · (1 − (s i − s j))² over (∑ p) · (∑ n), n the negative mask.
  When every score is a real number every quantity above is a real number, the two numerators are equal by expanding
  the square (PairSum), the two denominators because n = 1 − p, and so the two quotients are equal whatever the
  quotient's convention at a zero denominator.
-/
import proofs.«115600_j68685116998328_2_alg».proof.Proof.PairSum
import proofs.«115600_j68685116998328_2_alg».proof.Proof.SumRead

noncomputable section

open scoped BigOperators

namespace Cert.Stream

open Idealize.ShloMosaic Cert.SumRead

/-- The sigmoid of a real score. -/
def sig (x : ℝ) : ℝ := (1 + Real.exp (-x))⁻¹

theorem logistic_sig (r : ℝ) : Ideal.logistic (r : EReal) = ((sig r : ℝ) : EReal) := by
  simp only [Ideal.logistic_coe, sig]

/-! ## The streaming form -/

/-- The positive mask as the kernel computes it: the comparison's bit, widened to 32 bits, converted as a signed
    integer. -/
def posE (b : BitVec 32) : EReal := FloatOps.sitofp (F := Ideal) .f32 ((IntOp.cmpi .ne b 0#32).setWidth 32)

theorem posE_eq (b : BitVec 32) : posE b = ((posR b : ℝ) : EReal) := by
  show ((((((IntOp.cmpi .ne b 0#32).setWidth 32).toInt : ℤ) : ℝ)) : EReal) = _
  rw [toInt_setWidth_bit]
  rfl

/-- The closing arithmetic on the five totals. -/
def close (P Sp Sp2 S S2 : EReal) : EReal :=
  Ideal.div
    (P * (Ideal.ofBits .f32 0x46800000#32 - P)
        - (Ideal.ofBits .f32 0x40000000#32 * Sp) * (Ideal.ofBits .f32 0x46800000#32 - P)
      + (Ideal.ofBits .f32 0x40000000#32 * P) * (S - Sp)
      + Sp2 * (Ideal.ofBits .f32 0x46800000#32 - P)
      - (Ideal.ofBits .f32 0x40000000#32 * Sp) * (S - Sp)
      + P * (S2 - Sp2))
    (P * (Ideal.ofBits .f32 0x46800000#32 - P))

/-- The same polynomial and the same product of counts, on reals. -/
def numR (P Sp Sp2 S S2 : ℝ) : ℝ :=
  P * (16384 - P) - 2 * Sp * (16384 - P) + 2 * P * (S - Sp) + Sp2 * (16384 - P) - 2 * Sp * (S - Sp) + P * (S2 - Sp2)
def denR (P : ℝ) : ℝ := P * (16384 - P)

theorem close_coe (P Sp Sp2 S S2 : ℝ) :
    close (P : EReal) (Sp : EReal) (Sp2 : EReal) (S : EReal) (S2 : EReal)
      = Ideal.div ((numR P Sp Sp2 S S2 : ℝ) : EReal) ((denR P : ℝ) : EReal) := by
  unfold close numR denR
  simp only [ofBits_two, ofBits_16384, ← EReal.coe_mul, ← EReal.coe_sub, ← EReal.coe_add]

/-- The streaming form over a finite index set. -/
def value {ι : Type} [Fintype ι] (a : ι → EReal) (b : ι → BitVec 32) : EReal :=
  close (∑ i, posE (b i)) (∑ i, posE (b i) * Ideal.logistic (a i))
    (∑ i, posE (b i) * (Ideal.logistic (a i) * Ideal.logistic (a i)))
    (∑ i, Ideal.logistic (a i)) (∑ i, Ideal.logistic (a i) * Ideal.logistic (a i))

theorem value_coe {ι : Type} [Fintype ι] (x : ι → ℝ) (b : ι → BitVec 32) :
    value (fun i => ((x i : ℝ) : EReal)) b
      = Ideal.div ((numR (∑ i, posR (b i)) (∑ i, posR (b i) * sig (x i)) (∑ i, posR (b i) * (sig (x i) * sig (x i)))
          (∑ i, sig (x i)) (∑ i, sig (x i) * sig (x i)) : ℝ) : EReal)
        ((denR (∑ i, posR (b i)) : ℝ) : EReal) := by
  have hP : ∑ i, posE (b i) = ((∑ i, posR (b i) : ℝ) : EReal) := by
    rw [coe_sum]; exact Finset.sum_congr rfl fun i _ => posE_eq _
  have hSp : ∑ i, posE (b i) * Ideal.logistic ((x i : ℝ) : EReal) = ((∑ i, posR (b i) * sig (x i) : ℝ) : EReal) := by
    rw [coe_sum]; exact Finset.sum_congr rfl fun i _ => by rw [posE_eq, logistic_sig, ← EReal.coe_mul]
  have hSp2 : ∑ i, posE (b i) * (Ideal.logistic ((x i : ℝ) : EReal) * Ideal.logistic ((x i : ℝ) : EReal))
      = ((∑ i, posR (b i) * (sig (x i) * sig (x i)) : ℝ) : EReal) := by
    rw [coe_sum]; exact Finset.sum_congr rfl fun i _ => by rw [posE_eq, logistic_sig, ← EReal.coe_mul, ← EReal.coe_mul]
  have hS : ∑ i, Ideal.logistic ((x i : ℝ) : EReal) = ((∑ i, sig (x i) : ℝ) : EReal) := by
    rw [coe_sum]; exact Finset.sum_congr rfl fun i _ => logistic_sig _
  have hS2 : ∑ i, Ideal.logistic ((x i : ℝ) : EReal) * Ideal.logistic ((x i : ℝ) : EReal)
      = ((∑ i, sig (x i) * sig (x i) : ℝ) : EReal) := by
    rw [coe_sum]; exact Finset.sum_congr rfl fun i _ => by rw [logistic_sig, ← EReal.coe_mul]
  unfold value
  rw [hP, hSp, hSp2, hS, hS2, close_coe]

/-! ## The all-pairs form -/

/-- The sigmoid as the reference spells it: 1 / (1 + e^(−a)), the 1s the float literal. -/
def sU (a : EReal) : EReal :=
  Ideal.div (Ideal.ofBits .f32 0x3F800000#32) (Ideal.ofBits .f32 0x3F800000#32 + Ideal.exp (-a))
/-- The positive and the negative mask as the reference computes them: the comparison's bit converted unsigned. -/
def pU (b : BitVec 32) : EReal := FloatOps.uitofp (F := Ideal) .f32 (IntOp.cmpi .ne b 0#32)
def nU (b : BitVec 32) : EReal := FloatOps.uitofp (F := Ideal) .f32 (IntOp.cmpi .eq b 0#32)

theorem sU_coe (r : ℝ) : sU (r : EReal) = ((sig r : ℝ) : EReal) := by
  unfold sU
  rw [ofBits_one, EReal.coe_one]
  exact logistic_sig r
theorem pU_eq (b : BitVec 32) : pU b = ((posR b : ℝ) : EReal) := rfl
theorem nU_eq (b : BitVec 32) : nU b = ((negR b : ℝ) : EReal) := rfl

/-- The all-pairs form over a finite index set (each sum from the float zero, as a host sum starts). -/
def refValue {ι : Type} [Fintype ι] (a : ι → EReal) (b : ι → BitVec 32) : EReal :=
  Ideal.div
    (Ideal.ofBits .f32 0x00000000#32 + ∑ i, ∑ j, (pU (b i) * nU (b j))
      * ((Ideal.ofBits .f32 0x3F800000#32 - (sU (a i) - sU (a j))) * (Ideal.ofBits .f32 0x3F800000#32 - (sU (a i) - sU (a j)))))
    ((Ideal.ofBits .f32 0x00000000#32 + ∑ i, pU (b i)) * (Ideal.ofBits .f32 0x00000000#32 + ∑ i, nU (b i)))

theorem refValue_coe {ι : Type} [Fintype ι] (x : ι → ℝ) (b : ι → BitVec 32) :
    refValue (fun i => ((x i : ℝ) : EReal)) b
      = Ideal.div ((∑ i, ∑ j, (posR (b i) * negR (b j))
            * ((1 - (sig (x i) - sig (x j))) * (1 - (sig (x i) - sig (x j)))) : ℝ) : EReal)
          (((∑ i, posR (b i)) * (∑ i, negR (b i)) : ℝ) : EReal) := by
  have hterm : ∀ i j, (pU (b i) * nU (b j))
      * ((Ideal.ofBits .f32 0x3F800000#32 - (sU ((x i : ℝ) : EReal) - sU ((x j : ℝ) : EReal)))
        * (Ideal.ofBits .f32 0x3F800000#32 - (sU ((x i : ℝ) : EReal) - sU ((x j : ℝ) : EReal))))
      = (((posR (b i) * negR (b j)) * ((1 - (sig (x i) - sig (x j))) * (1 - (sig (x i) - sig (x j)))) : ℝ) : EReal) := by
    intro i j
    rw [pU_eq, nU_eq, sU_coe, sU_coe, ofBits_one]
    simp only [← EReal.coe_mul, ← EReal.coe_sub]
  have hpairs : ∑ i, ∑ j, (pU (b i) * nU (b j))
      * ((Ideal.ofBits .f32 0x3F800000#32 - (sU ((x i : ℝ) : EReal) - sU ((x j : ℝ) : EReal)))
        * (Ideal.ofBits .f32 0x3F800000#32 - (sU ((x i : ℝ) : EReal) - sU ((x j : ℝ) : EReal))))
      = ((∑ i, ∑ j, (posR (b i) * negR (b j))
            * ((1 - (sig (x i) - sig (x j))) * (1 - (sig (x i) - sig (x j)))) : ℝ) : EReal) := by
    rw [coe_sum]
    refine Finset.sum_congr rfl fun i _ => ?_
    rw [coe_sum]
    exact Finset.sum_congr rfl fun j _ => hterm i j
  have hp : ∑ i, pU (b i) = ((∑ i, posR (b i) : ℝ) : EReal) := by
    rw [coe_sum]; exact Finset.sum_congr rfl fun i _ => pU_eq _
  have hn : ∑ i, nU (b i) = ((∑ i, negR (b i) : ℝ) : EReal) := by
    rw [coe_sum]; exact Finset.sum_congr rfl fun i _ => nU_eq _
  unfold refValue
  rw [hpairs, hp, hn, Ideal.ofBits_zero_f32, zero_add, zero_add, zero_add, ← EReal.coe_mul]

/-! ## The two forms agree on finite scores -/

/-- On real scores, over an index set of 16384 elements, the streaming form is the all-pairs form. -/
theorem value_eq_refValue {ι : Type} [Fintype ι] (hcard : (Fintype.card ι : ℝ) = 16384) (x : ι → ℝ) (b : ι → BitVec 32) :
    value (fun i => ((x i : ℝ) : EReal)) b = refValue (fun i => ((x i : ℝ) : EReal)) b := by
  rw [value_coe, refValue_coe]
  have hn : ∀ i, negR (b i) = 1 - posR (b i) := fun i => negR_eq (b i)
  have hnum := Cert.PairSum.pair_stream (fun i => sig (x i)) (fun i => posR (b i)) (fun i => negR (b i)) hn 16384 hcard
  have hden := Cert.PairSum.counts_stream (fun i => posR (b i)) (fun i => negR (b i)) hn 16384 hcard
  beta_reduce at hnum hden
  rw [hnum, hden]
  rfl

end Cert.Stream

end
-- ==== Proof.KernelRead.lean ====
/-
  The kernel's result term at the ideal values is the streaming form of its two arguments.

  Each of the body's five totals is a [128,128] block summed along its lanes and then along its rows, which is the sum
  over every entry of the block; the entries are, index by index, the positive mask, the sigmoid, and their products;
  the rest of the body is the closing arithmetic on those totals at the one index of the [1,1] result. The blocks are
  the arguments reshaped, and a sum over a reshaped array is the sum over the array.
-/
import proofs.«115600_j68685116998328_2_alg».proof.Proof.KernelValue
import proofs.«115600_j68685116998328_2_alg».proof.Proof.Stream

noncomputable section

open scoped BigOperators

namespace Cert.KernelIdeal.Whole

open Cert.KernelIdeal Cert.KernelIdeal.Gen Idealize.ShloMosaic Idealize.ShloMosaic.ValueIdx Cert.SumRead Cert.Stream

/-! ## The pointwise payloads, index by index -/

/-- The sigmoid of the first block. -/
theorem sigmoid_block (x0 : Vec Ideal S128x128 .f32) :
    k0_pay2 (F := Ideal) x0 = fun i => Ideal.logistic (x0 i) := by
  unfold k0_pay2
  rw [shapeCast_self]
  rfl

/-- The positive mask of the second block. -/
theorem mask_block (x1 : Vec Ideal S128x128 .i32) :
    k0_pay3 (F := Ideal) x1 = fun i => posE (x1 i) := by
  unfold k0_pay3
  rw [shapeCast_self]
  rfl

/-- The squared sigmoid of the first block. -/
theorem square_block (x0 : Vec Ideal S128x128 .f32) :
    k0_pay4 (F := Ideal) x0 = fun i => Ideal.logistic (x0 i) * Ideal.logistic (x0 i) := by
  unfold k0_pay4
  rw [sigmoid_block]
  rfl

/-! ## The five totals and the closing arithmetic, at the result's one index -/

variable (x0 : Vec Ideal S128x128 .f32) (x1 : Vec Ideal S128x128 .i32) (k : S1x1.Idx)

/-- P, the count of positives. -/
theorem total_P : k0_pay5 (F := Ideal) x1 k = ∑ i : S128x128.Idx, posE (x1 i) := by
  unfold k0_pay5
  rw [mask_block]
  exact blockTotal _ _ _ _ _ _ _ k

/-- Sp, the sum of the positives' sigmoids. -/
theorem total_Sp : k0_pay6 (F := Ideal) x0 x1 k = ∑ i : S128x128.Idx, posE (x1 i) * Ideal.logistic (x0 i) := by
  unfold k0_pay6
  rw [mask_block, sigmoid_block]
  exact blockTotal _ _ _ _ _ _ _ k

/-- Sp2, the sum of the positives' squared sigmoids. -/
theorem total_Sp2 :
    k0_pay7 (F := Ideal) x0 x1 k = ∑ i : S128x128.Idx, posE (x1 i) * (Ideal.logistic (x0 i) * Ideal.logistic (x0 i)) := by
  unfold k0_pay7
  rw [mask_block, square_block]
  exact blockTotal _ _ _ _ _ _ _ k

/-- Nn = 16384 − P. -/
theorem total_Nn :
    k0_pay8 (F := Ideal) x1 k = Ideal.ofBits .f32 0x46800000#32 - ∑ i : S128x128.Idx, posE (x1 i) := by
  show Ideal.ofBits .f32 0x46800000#32 - k0_pay5 (F := Ideal) x1 k = _
  rw [total_P]

/-- Sn = S − Sp. -/
theorem total_Sn :
    k0_pay9 (F := Ideal) x0 x1 k
      = (∑ i : S128x128.Idx, Ideal.logistic (x0 i)) - ∑ i : S128x128.Idx, posE (x1 i) * Ideal.logistic (x0 i) := by
  unfold k0_pay9
  rw [sigmoid_block]
  exact congrArg₂ (· - ·) (blockTotal _ _ _ _ _ _ _ k) (total_Sp x0 x1 k)

/-- Sn2 = S2 − Sp2. -/
theorem total_Sn2 :
    k0_pay10 (F := Ideal) x0 x1 k
      = (∑ i : S128x128.Idx, Ideal.logistic (x0 i) * Ideal.logistic (x0 i))
        - ∑ i : S128x128.Idx, posE (x1 i) * (Ideal.logistic (x0 i) * Ideal.logistic (x0 i)) := by
  unfold k0_pay10
  rw [square_block]
  exact congrArg₂ (· - ·) (blockTotal _ _ _ _ _ _ _ k) (total_Sp2 x0 x1 k)

/-- The first two terms, P·Nn − 2·Sp·Nn. -/
theorem head_terms :
    k0_pay11 (F := Ideal) x0 x1 k
      = k0_pay5 (F := Ideal) x1 k * k0_pay8 (F := Ideal) x1 k
        - (Ideal.ofBits .f32 0x40000000#32 * k0_pay6 (F := Ideal) x0 x1 k) * k0_pay8 (F := Ideal) x1 k := rfl

/-- The stored value: the closing arithmetic over the payloads. -/
theorem stored_terms :
    bodyOut (F := Ideal) x0 x1 k
      = Ideal.div
        (k0_pay11 (F := Ideal) x0 x1 k
          + (Ideal.ofBits .f32 0x40000000#32 * k0_pay5 (F := Ideal) x1 k) * k0_pay9 (F := Ideal) x0 x1 k
          + k0_pay7 (F := Ideal) x0 x1 k * k0_pay8 (F := Ideal) x1 k
          - (Ideal.ofBits .f32 0x40000000#32 * k0_pay6 (F := Ideal) x0 x1 k) * k0_pay9 (F := Ideal) x0 x1 k
          + k0_pay5 (F := Ideal) x1 k * k0_pay10 (F := Ideal) x0 x1 k)
        (k0_pay5 (F := Ideal) x1 k * k0_pay8 (F := Ideal) x1 k) := rfl

/-- The body's stored value is the streaming form of the two blocks. -/
theorem bodyOut_apply : bodyOut (F := Ideal) x0 x1 k = value (fun i => x0 i) (fun i => x1 i) := by
  rw [stored_terms, head_terms, total_P, total_Sp, total_Sp2, total_Nn, total_Sn, total_Sn2]
  rfl

/-! ## From the blocks to the arguments -/

/-- The program's scalar result is the streaming form of its two arguments. -/
theorem result_eq (a0 : S16384.Idx → Elt Ideal .f32) (a1 : S16384.Idx → Elt Ideal .i32) :
    result (F := Ideal) a0 a1 = fun _ => value (fun i => a0 i) (fun i => a1 i) := by
  funext j
  show bodyOut (F := Ideal) (shapeCast S128x128 a0 shapeCasts_S16384_S128x128)
      (shapeCast S128x128 a1 shapeCasts_S16384_S128x128) (Shape.reshapeEquiv shapeCasts_S1x1_S_ j) = _
  rw [bodyOut_apply]
  unfold value
  rw [sum_shapeCast₂ a0 a1 shapeCasts_S16384_S128x128 (fun _ v => posE v),
    sum_shapeCast₂ a0 a1 shapeCasts_S16384_S128x128 (fun u v => posE v * Ideal.logistic u),
    sum_shapeCast₂ a0 a1 shapeCasts_S16384_S128x128 (fun u v => posE v * (Ideal.logistic u * Ideal.logistic u)),
    sum_shapeCast₂ a0 a1 shapeCasts_S16384_S128x128 (fun u _ => Ideal.logistic u),
    sum_shapeCast₂ a0 a1 shapeCasts_S16384_S128x128 (fun u _ => Ideal.logistic u * Ideal.logistic u)]

end Cert.KernelIdeal.Whole

end
-- ==== Proof.RefRead.lean ====
/-
  The reference's result term at the ideal values is the all-pairs form of its two arguments.

  Operation by operation: the sigmoid is 1 / (1 + e^(−x)); the two masks are the comparison bits converted; the
  [16384,16384] arrays are broadcasts of [16384] vectors along one axis or the other, so the entry at (i, j) of the
  summed array is (p i · n j) · (1 − (s i − s j))²; the sum over the square is the double sum over its coordinates;
  the two counts are sums over the vector; the result is their quotient.
-/
import proofs.«115600_j68685116998328_2_alg».proof.Proof.Gen.ReferenceIdeal.Read
import proofs.«115600_j68685116998328_2_alg».proof.Proof.Stream

noncomputable section

open scoped BigOperators

namespace Cert.ReferenceIdeal.Pairs

open Cert.ReferenceIdeal Cert.ReferenceIdeal.Read Idealize.ShloMosaic Idealize.ShloMosaic.ValueIdx Cert.SumRead Cert.Stream

variable (a0 : (⟨S16384, .f32⟩ : BufTy).Contents (Elt Ideal)) (a1 : (⟨S16384, .i32⟩ : BufTy).Contents (Elt Ideal))

/-- The sigmoid vector, entry by entry. -/
theorem sigmoid_at (i : S16384.Idx) : val_main_v5 (F := Ideal) a0 i = sU (a0 i) := by
  rw [val_main_v5_apply, val_main_v4_apply, val_main_cst_0_apply, val_main_v3_apply, val_main_v2_apply,
    val_main_cst_apply, val_main_v1_apply, val_main_v0_apply]
  rfl

/-- The positive mask, entry by entry. -/
theorem pos_at (i : S16384.Idx) : val_main_v8 (F := Ideal) a1 i = pU (a1 i) := by
  rw [val_main_v8_apply, val_main_v7_apply, val_main_v6_apply, val_main_c_apply]
  rfl

/-- The negative mask, entry by entry. -/
theorem neg_at (i : S16384.Idx) : val_main_v11 (F := Ideal) a1 i = nU (a1 i) := by
  rw [val_main_v11_apply, val_main_v10_apply, val_main_v9_apply, val_main_c_1_apply]
  rfl

/-- A vector broadcast along the columns reads, at (i, j), its entry i. -/
theorem row_index (j : S16384x16384.Idx) : idx_main_v12 (idx_main_v14 j) = ix1 (n := 16384) (j 0) := by
  funext a; match a with | ⟨0, _⟩ => rfl
theorem row_index' (j : S16384x16384.Idx) : idx_main_v19 (idx_main_v21 j) = ix1 (n := 16384) (j 0) := by
  funext a; match a with | ⟨0, _⟩ => rfl
/-- A vector broadcast along the rows reads, at (i, j), its entry j. -/
theorem col_index (j : S16384x16384.Idx) : idx_main_v13 (idx_main_v15 j) = ix1 (n := 16384) (j 1) := by
  funext a; match a with | ⟨0, _⟩ => rfl
theorem col_index' (j : S16384x16384.Idx) : idx_main_v20 (idx_main_v22 j) = ix1 (n := 16384) (j 1) := by
  funext a; match a with | ⟨0, _⟩ => rfl

/-- The summand of the all-pairs sum as a function of the two vector indices. -/
def term (a b : S16384.Idx) : EReal :=
  (pU (a1 a) * nU (a1 b))
    * ((Ideal.ofBits .f32 0x3F800000#32 - (sU (a0 a) - sU (a0 b))) * (Ideal.ofBits .f32 0x3F800000#32 - (sU (a0 a) - sU (a0 b))))

/-- The summed [16384,16384] array at (i, j). -/
theorem term_at (j : S16384x16384.Idx) :
    val_main_v25 (F := Ideal) a0 a1 j = term a0 a1 (ix1 (n := 16384) (j 0)) (ix1 (n := 16384) (j 1)) := by
  rw [val_main_v25_apply, val_main_v23_apply, val_main_v24_apply, val_main_v21_apply, val_main_v22_apply,
    val_main_v19_apply, val_main_v20_apply, val_main_v18_apply, val_main_v17_apply, val_main_cst_2_apply,
    val_main_v16_apply, val_main_v14_apply, val_main_v15_apply, val_main_v12_apply, val_main_v13_apply,
    row_index, row_index', col_index, col_index', sigmoid_at, sigmoid_at, pos_at, neg_at]
  rfl

/-- The reference's result is the all-pairs form of its two arguments. -/
theorem result_eq : val_main_v30 (F := Ideal) a0 a1 = fun _ => refValue (fun i => a0 i) (fun i => a1 i) := by
  funext i
  rw [val_main_v30_apply, val_main_v26_apply, val_main_v29_apply, val_main_v27_apply, val_main_v28_apply,
    val_main_cst_3_apply, val_main_cst_4_apply, val_main_cst_5_apply]
  have hpairs : ∑ j : S16384x16384.Idx, val_main_v25 (F := Ideal) a0 a1 j = ∑ a, ∑ b, term a0 a1 a b :=
    (Finset.sum_congr rfl fun j _ => term_at a0 a1 j).trans (sum_pairs (n := 16384) (term a0 a1))
  have hp : ∑ j : S16384.Idx, val_main_v8 (F := Ideal) a1 j = ∑ j, pU (a1 j) :=
    Finset.sum_congr rfl fun j _ => pos_at a1 j
  have hn : ∑ j : S16384.Idx, val_main_v11 (F := Ideal) a1 j = ∑ j, nU (a1 j) :=
    Finset.sum_congr rfl fun j _ => neg_at a1 j
  rw [hpairs, hp, hn]
  rfl

end Cert.ReferenceIdeal.Pairs

end
-- ==== Proof.Finite.lean ====
/-
  The precondition, read back: every score is a real number.

  The precondition says that the conjunction, over all 16384 entries, of "|x| < +∞" is true. So each entry's
  comparison is true, and an extended real whose absolute value is below +∞ is neither infinity: it is a real.
-/
import proofs.«115600_j68685116998328_2_alg».proof.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.Pipeline.Value

noncomputable section

namespace Cert.Finite

open Idealize.ShloMosaic Cert.Pre_finite_inputs

instance : Subsingleton (S_).Idx := ⟨fun a b => funext fun d => d.elim0⟩

/-- The float pattern of +∞ denotes the top extended real. -/
theorem ofBits_inf : Ideal.ofBits .f32 0x7F800000#32 = (⊤ : EReal) := by
  simp [Ideal.ofBits, Ideal.ieee]

/-- An extended real whose absolute value is below +∞ is a real. -/
theorem real_of_abs_lt_top (x : EReal) (h : max x (-x) < ⊤) : ∃ r : ℝ, x = (r : EReal) := by
  induction x using EReal.rec with
  | bot => simp at h
  | top => simp at h
  | coe r => exact ⟨r, rfl⟩

/-- Under the precondition every entry of the first argument is a real. -/
theorem real_of_pre [Facts] (a0 : FVec Ideal S16384 .f32) (a1 : IVec S16384 32)
    (h : fn (F := Ideal) a0 a1 = fun _ => 1#1) (i : S16384.Idx) : ∃ r : ℝ, a0 i = (r : EReal) := by
  have h0 := congrFun h ValueIdx.ix0
  dsimp only [fn] at h0
  have hi := Host.reduce_andi_all _ _ _ _ _ h0 i
  have hb : broadcastInDim S16384 ![] Facts.bcast_S_S16384 (constant (F := Ideal) S_ .f32 0x7F800000#32) i
      = Ideal.ofBits .f32 0x7F800000#32 :=
    broadcastInDim_apply _ Facts.bcast_S_S16384 _ i ValueIdx.ix0 (fun a => a.elim0)
  have hc : Ideal.cmp .olt (max (a0 i) (-(a0 i))) (⊤ : EReal) = 1#1 := by
    rw [← ofBits_inf, ← hb]; exact hi
  refine real_of_abs_lt_top (a0 i) ?_
  unfold Ideal.cmp at hc
  by_contra hlt
  simp [hlt] at hc

end Cert.Finite

end
-- ==== Proof.lean ====
/-
  The kernel streams the pairwise loss: for N = 16384 scores x and integer targets, with s = sigmoid x, p the mask of
  the nonzero targets and n the mask of the zero targets, the reference computes

      ( ∑ i j, (p i · n j) · (1 − (s i − s j))² ) / ( (∑ p) · (∑ n) )

  over the full N × N square, and the kernel computes, in one pass over a [128,128] view of the same data, the five
  totals P = ∑ p, Sp = ∑ p·s, Sp2 = ∑ p·s², S = ∑ s, S2 = ∑ s², and from them

      ( P·Nn − 2·Sp·Nn + 2·P·Sn + Sp2·Nn − 2·Sp·Sn + P·Sn2 ) / ( P·Nn ),   Nn = N − P, Sn = S − Sp, Sn2 = S2 − Sp2.

  Over the extended reals the two are equal when every score is finite: then every sigmoid, product and sum is a real
  number, the numerators agree by expanding the square and splitting each double sum into a product of single sums,
  and the denominators agree because n = 1 − p (a target is zero or it is not), so the two quotients are the same
  quotient. The kernel's `tpu.logistic` and the reference's 1 / (1 + e^(−x)) are one function on the extended reals.

  The pieces: PairSum (the real algebra), SumRead (sums at the ideal values), Stream (the two closed forms and their
  equality), KernelValue and KernelRead (the kernel's run and its result term), RefRead (the reference's result term),
  Finite (the precondition read back). The three frames are the programs' runs with the result dropped; the kernel's
  idealization rewrites nothing.
-/
import proofs.«115600_j68685116998328_2_alg».proof.Defs
import proofs.«115600_j68685116998328_2_alg».proof.Proof.Gen.Kernel
import proofs.«115600_j68685116998328_2_alg».proof.Proof.Gen.Kernel.Skeleton
import proofs.«115600_j68685116998328_2_alg».proof.Proof.Gen.Kernel.Launch
import proofs.«115600_j68685116998328_2_alg».proof.Proof.Gen.Kernel.Points
import proofs.«115600_j68685116998328_2_alg».proof.Proof.Gen.Kernel.Frame
import proofs.«115600_j68685116998328_2_alg».proof.Proof.Gen.KernelIdeal
import proofs.«115600_j68685116998328_2_alg».proof.Proof.Gen.KernelIdeal.Skeleton
import proofs.«115600_j68685116998328_2_alg».proof.Proof.Gen.KernelIdeal.Launch
import proofs.«115600_j68685116998328_2_alg».proof.Proof.Gen.KernelIdeal.Points
import proofs.«115600_j68685116998328_2_alg».proof.Proof.Gen.KernelIdeal.Frame
import proofs.«115600_j68685116998328_2_alg».proof.Proof.Gen.ReferenceIdeal
import proofs.«115600_j68685116998328_2_alg».proof.Proof.Gen.Pre_finite_inputs
import proofs.«115600_j68685116998328_2_alg».proof.Proof.Gen.ReferenceIdeal.Run
import proofs.«115600_j68685116998328_2_alg».proof.Proof.Gen.ReferenceIdeal.Read
import proofs.«115600_j68685116998328_2_alg».proof.Proof.KernelRead
import proofs.«115600_j68685116998328_2_alg».proof.Proof.RefRead
import proofs.«115600_j68685116998328_2_alg».proof.Proof.Finite
import Idealize.ShloMosaic.Adequacy
import Idealize.ShloMosaic.Init

noncomputable section

namespace Cert.Proof

open Idealize.ShloMosaic Idealize.ShloMosaic.TcCoe Idealize.SL.Sem

/-- The [16384] index set has 16384 elements. -/
theorem card_samples : (Fintype.card (Cert.ReferenceIdeal.S16384).Idx : ℝ) = 16384 := by
  have h : (Cert.ReferenceIdeal.S16384).numel = 16384 := by decide
  rw [Shape.card_idx, h]
  norm_num

/-- On finite scores the reference's result term is the kernel's. -/
theorem results_agree (a0 : (Cert.ReferenceIdeal.S16384).Idx → EReal) (a1 : (Cert.ReferenceIdeal.S16384).Idx → BitVec 32)
    (hfin : ∀ i, ∃ r : ℝ, a0 i = (r : EReal)) :
    Cert.ReferenceIdeal.Read.val_main_v30 (F := Ideal) a0 a1 = Cert.KernelIdeal.Whole.result (F := Ideal) a0 a1 := by
  choose x hx using hfin
  obtain rfl : a0 = fun i => ((x i : ℝ) : EReal) := funext hx
  rw [Cert.ReferenceIdeal.Pairs.result_eq, Cert.KernelIdeal.Whole.result_eq]
  funext _
  exact (Cert.Stream.value_eq_refValue card_samples x a1).symm

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs run; from memories agreeing on the arguments, the reference's scalar is the kernel's. -/
theorem algebraic : Cert.algebraic_KernelIdeal_ReferenceIdeal := by
  intro m ρ m' ρ' hpre hagree
  refine ⟨fun c => Cert.KernelIdeal.Whole.result (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v30_eq]
  exact results_agree _ _ (Cert.Finite.real_of_pre _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
